-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S2048x4096 : Shape := ⟨2, ![2048, 4096]⟩
abbrev S4096 : Shape := ⟨1, ![4096]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192 : S_.BroadcastsInDim S8192 (![] : Fin 0 → Fin S8192.rank)
  reducesTo_S8192_S_d0 : S8192.ReducesTo [0] S_
  bcast_S_S2048x4096 : S_.BroadcastsInDim S2048x4096 (![] : Fin 0 → Fin S2048x4096.rank)
  reducesTo_S2048x4096_S_d0_1 : S2048x4096.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S2048x4096 .f32) (main_arg5 : FVec F S4096 .f32) (main_arg6 : FVec F S1024 .f32) (main_arg7 : FVec F S1024 .f32) (main_v13 : IVec S_ 1) (main_v16 : IVec S8192 1) : IVec S_ 1 :=
  let main_c_5 : IVec S_ 1 := constantI S_ 1 1#1
  let main_v17 : IVec S_ 1 := (fun x v => Host.reduce IntOp.andi x v reducesTo_S8192_S_d0 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_v33

def fn {F : FTy → Type} [FloatOps F] (main_arg0 : FVec F S8192x1024 .f32) (main_arg1 : FVec F S8192x1024 .f32) (main_arg2 : FVec F S8192x1024 .f32) (main_arg3 : FVec F S8192 .f32) (main_arg4 : FVec F S2048x4096 .f32) (main_arg5 : FVec F S4096 .f32) (main_arg6 : FVec F S1024 .f32) (main_arg7 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192 .f32 := Host.absf main_arg3
  let main_cst_4 : FVec F S_ .f32 := constant S_ .f32 0x7F800000#32
  let main_v15 : FVec F S8192 .f32 := broadcastInDim S8192 ![] bcast_S_S8192 main_cst_4
  let main_v16 : IVec S8192 1 := cmpf .olt main_v14 main_v15
  fn_part1 (F := F) main_arg4 main_arg5 main_arg6 main_arg7 main_v13 main_v16
-- ==== Kernel.lean ====
abbrev S8192x1024 : Shape := ⟨2, ![8192, 1024]⟩
abbrev S8192 : Shape := ⟨1, ![8192]⟩
abbrev S2048x4096 : Shape := ⟨2, ![2048, 4096]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S8192x1 : Shape := ⟨2, ![8192, 1]⟩
abbrev S256x1024 : Shape := ⟨2, ![256, 1024]⟩
abbrev S256x1 : Shape := ⟨2, ![256, 1]⟩
abbrev S256x4096 : Shape := ⟨2, ![256, 4096]⟩
abbrev S256 : Shape := ⟨1, ![256]⟩

abbrev nBuf : Space → Nat
  | .hbm => 18
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .f32⟩
  | .hbm, ⟨4, _⟩ => ⟨S2048x4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S1024x4096, .f32⟩
  | .hbm, ⟨9, _⟩ => ⟨S1024x4096, .bf16⟩
  | .hbm, ⟨10, _⟩ => ⟨S1024x4096, .f32⟩
  | .hbm, ⟨11, _⟩ => ⟨S1024x4096, .bf16⟩
  | .hbm, ⟨12, _⟩ => ⟨S1x4096, .f32⟩
  | .hbm, ⟨13, _⟩ => ⟨S1x1024, .f32⟩
  | .hbm, ⟨14, _⟩ => ⟨S1x1024, .f32⟩
  | .hbm, ⟨15, _⟩ => ⟨S8192x1, .f32⟩
  | .hbm, ⟨16, _⟩ => ⟨S8192x1024, .f32⟩
  | .hbm, ⟨17, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S1024x4096, .bf16⟩
  | .local _ .vmem, ⟨9, _⟩ => ⟨S1024x4096, .bf16⟩
  | .local _ .vmem, ⟨10, _⟩ => ⟨S1x4096, .f32⟩
  | .local _ .vmem, ⟨11, _⟩ => ⟨S1x1024, .f32⟩
  | .local _ .vmem, ⟨12, _⟩ => ⟨S1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2048x4096_S1024x4096_0_0 : S2048x4096.Slices ![0, 0] S1024x4096
  bitsLt_bf16_f32 : FTy.bits .bf16 < FTy.bits .f32
  slices_S2048x4096_S1024x4096_1024_0 : S2048x4096.Slices ![1024, 0] S1024x4096
  shapeCasts_S4096_S1x4096 : S4096.ShapeCasts S1x4096
  shapeCasts_S1024_S1x1024 : S1024.ShapeCasts S1x1024
  shapeCasts_S8192_S8192x1 : S8192.ShapeCasts S8192x1
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  slices_S256x4096_o0_2048_S256x1024 : S256x4096.Slices ![0, 2048] S256x1024
  slices_S256x4096_o0_3072_S256x1024 : S256x4096.Slices ![0, 3072] S256x1024
  reduces_S256x1024_S256 : S256x1024.Reduces [1] S256
  shapeCasts_S256_S256x1 : S256.ShapeCasts S256x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x4096.size a ≤ S1024x4096.size a
  hwx0_5 : ∀ i : grid0.Coords, EltTy.bits .bf16 = 32 ∨ (Rect.block (s := S1024x4096) S1024x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S8192x1024.size a
  hwx0_10 : ∀ i : grid0.Coords, EltTy.bits .f32 = 32 ∨ (Rect.block (s := S8192x1024) S256x1024.size (cc0_transform_10 i) (hinb0_10 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v8_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v8_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192 : Shape := ⟨1, ![8192]⟩
abbrev S2048x4096 : Shape := ⟨2, ![2048, 4096]⟩
abbrev S4096 : Shape := ⟨1, ![4096]⟩
abbrev S1024 : Shape := ⟨1, ![1024]⟩
abbrev S8192x2048 : Shape := ⟨2, ![8192, 2048]⟩
abbrev S8192x4096 : Shape := ⟨2, ![8192, 4096]⟩
abbrev S1x4096 : Shape := ⟨2, ![1, 4096]⟩
abbrev S_ : Shape := ⟨0, ![]⟩
abbrev S8192x1 : Shape := ⟨2, ![8192, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .f32⟩
  | .hbm, ⟨4, _⟩ => ⟨S2048x4096, .f32⟩
  | .hbm, ⟨5, _⟩ => ⟨S4096, .f32⟩
  | .hbm, ⟨6, _⟩ => ⟨S1024, .f32⟩
  | .hbm, ⟨7, _⟩ => ⟨S1024, .f32⟩
  | .hbm, ⟨8, _⟩ => ⟨S8192x2048, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8192x1, .f32⟩
  | .hbm, ⟨67, _⟩ => ⟨S8192x1, .f32⟩
  | .hbm, ⟨68, _⟩ => ⟨S8192x1, .f32⟩
  | .hbm, ⟨69, _⟩ => ⟨S8192x1024, .f32⟩
  | .hbm, ⟨70, _⟩ => ⟨S8192x1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S1x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_9 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  reducesTo_S8192x1024_S8192_d1 : S8192x1024.ReducesTo [1] S8192
  h_S_ : 0 < S_.numel
  bcast_S_S8192x1 : S_.BroadcastsInDim S8192x1 (![] : Fin 0 → Fin S8192x1.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Spec.lean ====
/-
  The cell update, written once over the extended reals, one batch row at a time.

  A row's four gate pre-activations are the row of the input times the upper half of the weight matrix, plus the row of
  the previous hidden state times the lower half, plus the bias: 4096 numbers, read in four runs of 1024 (input gate,
  forget gate, candidate, output gate). The new cell row is  forget · mask · previous cell + input · candidate,  with
  the logistic function on the three gates and tanh on the candidate. The row is then normalised: its mean and its
  mean squared deviation (both sums over the 1024 entries divided by the row's width), the deviation scaled by the
  reciprocal square root of the spread plus a small constant, then by a gain and moved by an offset. The new hidden row
  is the output gate times tanh of the normalised cell.

  Two small facts about numbers close the distance between the two programs that compute this: the sum over 2048
  contraction positions is the sum over the first 1024 plus the sum over the last 1024 (addition of extended reals is
  commutative and associative, so no finiteness is needed), and  1 / (1 + e^(-z))  is the logistic function by
  definition.
-/
import Idealize.ShloMosaic.PureOps.Ideal
import Idealize.ShloMosaic.PureOps.Ideal.Laws
import Idealize.ShloMosaic.Lib.ValueIdx

noncomputable section

namespace Cert.CellNorm

open Idealize.ShloMosaic Idealize.ShloMosaic.ValueIdx

/-- The row width 1024 as the float the programs divide by (the same word in both, never evaluated). -/
abbrev width : EReal := Ideal.ofBits .f32 0x44800000#32
/-- The small constant added to the spread before the reciprocal square root (the same word in both). -/
abbrev eps : EReal := Ideal.ofBits .f32 0x3727C5AC#32

/-- Position `q` of the input gate's run among the 4096 pre-activations. -/
def inAt (q : Fin 1024) : Fin 4096 := ⟨q.val, by have := q.isLt; omega⟩
/-- Position `q` of the forget gate's run. -/
def fgAt (q : Fin 1024) : Fin 4096 := ⟨1024 + q.val, by have := q.isLt; omega⟩
/-- Position `q` of the candidate's run. -/
def cdAt (q : Fin 1024) : Fin 4096 := ⟨2048 + q.val, by have := q.isLt; omega⟩
/-- Position `q` of the output gate's run. -/
def outAt (q : Fin 1024) : Fin 4096 := ⟨3072 + q.val, by have := q.isLt; omega⟩

/-- Contraction position `k` of the upper half of the 2048 weight rows. -/
def upper (k : Fin 1024) : Fin 2048 := ⟨k.val, by have := k.isLt; omega⟩
/-- Contraction position `k` of the lower half. -/
def lower (k : Fin 1024) : Fin 2048 := ⟨1024 + k.val, by have := k.isLt; omega⟩

/-- One row's gate pre-activation `j`: input row times weight column `j` (upper rows), previous hidden row times weight
    column `j` (lower rows), plus the bias. -/
def gates (xr hr : Fin 1024 → EReal) (Wx Wh : Fin 1024 → Fin 4096 → EReal) (b : Fin 4096 → EReal) (j : Fin 4096) : EReal :=
  (∑ k : Fin 1024, xr k * Wx k j) + (∑ k : Fin 1024, hr k * Wh k j) + b j

/-- One row's new cell entry `q` from its pre-activations `g`, its mask `f` and its previous cell row. -/
def cell (g : Fin 4096 → EReal) (f : EReal) (cp : Fin 1024 → EReal) (q : Fin 1024) : EReal :=
  Ideal.logistic (g (fgAt q)) * f * cp q + Ideal.logistic (g (inAt q)) * Ideal.tanh (g (cdAt q))

/-- A row's mean. -/
def mean (c : Fin 1024 → EReal) : EReal := Ideal.div (∑ q : Fin 1024, c q) width

/-- A row's sum of squared deviations from a centre `μ`. -/
def sqDev (c : Fin 1024 → EReal) (μ : EReal) : EReal := ∑ q : Fin 1024, (c q - μ) * (c q - μ)

/-- A row's normalised entry `q`: deviation from the mean, over the root of the mean squared deviation plus the small
    constant, times the gain, plus the offset. -/
def normed (c γ β : Fin 1024 → EReal) (q : Fin 1024) : EReal :=
  (c q - mean c) * Ideal.rsqrt (Ideal.div (sqDev c (mean c)) width + eps) * γ q + β q

/-- A row's new hidden entry `q`: the output gate times tanh of the normalised cell. -/
def hidden (g : Fin 4096 → EReal) (c γ β : Fin 1024 → EReal) (q : Fin 1024) : EReal :=
  Ideal.logistic (g (outAt q)) * Ideal.tanh (normed c γ β q)

/-! ## The whole arrays -/

section Arrays

variable (x h cp : (⟨2, ![8192, 1024]⟩ : Shape).Idx → EReal) (fm : (⟨1, ![8192]⟩ : Shape).Idx → EReal)
  (W : (⟨2, ![2048, 4096]⟩ : Shape).Idx → EReal) (b : (⟨1, ![4096]⟩ : Shape).Idx → EReal)
  (γ β : (⟨1, ![1024]⟩ : Shape).Idx → EReal)

/-- Row `r`'s pre-activations from the argument arrays. -/
def gatesOf (r : Fin 8192) : Fin 4096 → EReal :=
  gates (fun k => x (ix2 r k)) (fun k => h (ix2 r k)) (fun k j => W (ix2 (upper k) j)) (fun k j => W (ix2 (lower k) j))
    (fun j => b (ix1 j))

/-- Row `r`'s new cell row (before normalisation) from the argument arrays. -/
def cellOf (r : Fin 8192) : Fin 1024 → EReal :=
  cell (gatesOf x h W b r) (fm (ix1 r)) (fun q => cp (ix2 r q))

/-- The normalised cell array: the second result of both programs. -/
def cellArr : (⟨2, ![8192, 1024]⟩ : Shape).Idx → EReal := fun i =>
  normed (cellOf x h cp fm W b (i 0)) (fun q => γ (ix1 q)) (fun q => β (ix1 q)) (i 1)

/-- The hidden array: the first result of both programs. -/
def hiddenArr : (⟨2, ![8192, 1024]⟩ : Shape).Idx → EReal := fun i =>
  hidden (gatesOf x h W b (i 0)) (cellOf x h cp fm W b (i 0)) (fun q => γ (ix1 q)) (fun q => β (ix1 q)) (i 1)

end Arrays

/-! ## The two facts about numbers -/

/-- A sum over 2048 positions is the sum over the upper 1024 plus the sum over the lower 1024. -/
theorem sum_halves {M : Type*} [AddCommMonoid M] (f : Fin 2048 → M) :
    ∑ k : Fin 2048, f k = (∑ k : Fin 1024, f (upper k)) + ∑ k : Fin 1024, f (lower k) := by
  have e : ∑ k : Fin 2048, f k = ∑ k : Fin (1024 + 1024), f (Fin.cast (by norm_num) k) :=
    (Fintype.sum_equiv (finCongr (by norm_num : 1024 + 1024 = 2048)) _ _ (fun _ => rfl)).symm
  rw [e, Fin.sum_univ_add]
  refine congrArg₂ (· + ·) (Finset.sum_congr rfl fun k _ => congrArg f (Fin.ext ?_))
    (Finset.sum_congr rfl fun k _ => congrArg f (Fin.ext ?_))
  · rfl
  · show 1024 + k.val = 1024 + k.val; rfl

/-- The float word of 1.0 is the number one. -/
theorem ofBits_one : Ideal.ofBits .f32 0x3F800000#32 = 1 := by
  simp [Ideal.ofBits, Ideal.ieee, -EReal.coe_mul]; norm_num

/-- `1 / (1 + e^(-z))` with the float word of 1.0 for both ones is the logistic function. -/
theorem logistic_expand (z : EReal) :
    Ideal.div (Ideal.ofBits .f32 0x3F800000#32) (Ideal.ofBits .f32 0x3F800000#32 + Ideal.exp (-z)) = Ideal.logistic z := by
  rw [ofBits_one]; rfl

end Cert.CellNorm

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.KernelRows.lean ====
/-
  The kernel body's values, read one entry at a time.

  The body works on a tile of 256 batch rows: it multiplies the tile of the input and the tile of the previous hidden
  state by the two halves of the weight matrix, adds the two products and the bias, cuts the 4096 columns into the four
  gates, forms the new cell tile, takes each row's sum twice (for the mean, then for the squared deviations from it),
  and scales. Every lemma here says what ONE entry `(p, q)` of one intermediate tile is, in terms of entries of the
  tiles it was computed from, and identifies it with the row-wise formulas of the specification; the tiles are
  arbitrary (variables), so nothing here depends on where in the arrays they came from.
-/
import proofs.«180117_j58866821759063_2_alg».proof.Proof.Gen.KernelIdeal.Skeleton
import proofs.«180117_j58866821759063_2_alg».proof.Proof.Spec
import proofs.«180117_j58866821759063_2_alg».proof.Proof.LibColumn
import proofs.«180117_j58866821759063_2_alg».proof.Proof.LibLaneSum
import Idealize.ShloMosaic.Lib.ValueLayout
import Idealize.ShloMosaic.Lib.ValueIdx
import Idealize.ShloMosaic.Lib.Pipeline.Value
import Idealize.ShloMosaic.PureOps.Ideal.Laws

noncomputable section

namespace Cert.CellNorm.Body

open Cert.KernelIdeal Cert.KernelIdeal.Gen Idealize.ShloMosaic Idealize.ShloMosaic.ValueIdx Cert.CellNorm

/-! ## Entrywise operations at an entry -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl
theorem rsqrt_at {s : Shape} {φ : FTy} (a : FVec Ideal s φ) (i : s.Idx) : rsqrt a i = Ideal.rsqrt (a i) := rfl

/-! ## One matrix product of the body: a tile of 256 rows times a 1024 × 4096 matrix -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl

theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- Entry `(p, j)` of a tile times a matrix, accumulated from zero: row `p` of the tile against column `j` of the matrix. -/
theorem product_at (a : FVec Ideal S256x1024 .bf16) (w : FVec Ideal S1024x4096 .bf16) (p : Fin 256) (j : Fin 4096) :
    matmul dot_S256x1024_S1024x4096_S256x4096_1_0_0_1_n_n none a w (constant (F := Ideal) S256x4096 .f32 0x00000000#32) (ix2 p j)
      = ∑ k : Fin 1024, a (ix2 p k) * w (ix2 k j) := by
  refine (Ideal.matmul_constant_zero_apply dot_S256x1024_S1024x4096_S256x4096_1_0_0_1_n_n none a w (ix2 p j)).trans ?_
  rw [← Equiv.sum_comp (ValueIdx.contrEquiv1 dot_S256x1024_S1024x4096_S256x4096_1_0_0_1_n_n 1024 rfl rfl).symm]
  refine Finset.sum_congr rfl fun k _ => ?_
  have hk := ValueIdx.contrEquiv1_symm_val dot_S256x1024_S1024x4096_S256x4096_1_0_0_1_n_n 1024 rfl rfl k
  have el : dot_S256x1024_S1024x4096_S256x4096_1_0_0_1_n_n.lhsIdx (ix2 p j) ((ValueIdx.contrEquiv1 dot_S256x1024_S1024x4096_S256x4096_1_0_0_1_n_n 1024 rfl rfl).symm k) = ix2 p k := funext fun ax => Fin.ext (by
    match ax with
    | ⟨0, _⟩ => exact lhs_row _ _
    | ⟨1, _⟩ => exact (dot_S256x1024_S1024x4096_S256x4096_1_0_0_1_n_n.lhsIdx_val_of_single rfl _ _).trans hk)
  have er : dot_S256x1024_S1024x4096_S256x4096_1_0_0_1_n_n.rhsIdx (ix2 p j) ((ValueIdx.contrEquiv1 dot_S256x1024_S1024x4096_S256x4096_1_0_0_1_n_n 1024 rfl rfl).symm k) = ix2 k j := funext fun ax => Fin.ext (by
    match ax with
    | ⟨0, _⟩ => exact (dot_S256x1024_S1024x4096_S256x4096_1_0_0_1_n_n.rhsIdx_val_of_single rfl _ _).trans hk
    | ⟨1, _⟩ => exact rhs_col _ _)
  rw [el, er]

/-! ## The intermediate tiles -/

section Tiles

variable (v0 v2 : FVec Ideal S256x1024 .f32) (v4 v7 : FVec Ideal S1024x4096 .bf16) (v11 : FVec Ideal S1x4096 .f32)
  (v19 : FVec Ideal S256x1 .f32) (v27 : FVec Ideal S256x1024 .f32)

/-- The pre-activation tile at `(p, j)`: the specification's gate pre-activation `j` of the tile's row `p`. -/
theorem gates_at (p : Fin 256) (j : Fin 4096) :
    k0_pay3 (F := Ideal) v0 v2 v4 v7 v11 (ix2 p j)
      = gates (fun k => v0 (ix2 p k)) (fun k => v2 (ix2 p k)) (fun k j => v4 (ix2 k j)) (fun k j => v7 (ix2 k j))
          (fun j => v11 (ix2 (0 : Fin 1) j)) j := by
  unfold k0_pay3 gates
  simp only [addf_apply]
  rw [product_at, product_at, broadcastTo_1b_ab_apply, shapeCast_self, shapeCast_self, shapeCast_self]
  rfl

/-- The new cell tile at `(p, q)`. -/
theorem cell_at (p : Fin 256) (q : Fin 1024) :
    k0_pay5 (F := Ideal) v0 v2 v4 v7 v11 v19 v27 (ix2 p q)
      = cell (fun j => k0_pay3 (F := Ideal) v0 v2 v4 v7 v11 (ix2 p j)) (v19 (ix2 p (0 : Fin 1))) (fun q => v27 (ix2 p q)) q := by
  unfold k0_pay5 cell
  simp only [addf_apply, mulf_apply, logistic_at, tanh_at]
  rw [slice2_axis1_apply 1024 _ _ p q (fgAt q) rfl, slice2_axis1_apply 0 _ _ p q (inAt q) (Nat.zero_add _).symm,
    slice2_axis1_apply 2048 _ _ p q (cdAt q) rfl, Cert.GraphConv.Column.broadcastTo_a1_ab_apply, shapeCast_self]

/-- The column of row means at row `p`. -/
theorem mean_at (p : Fin 256) (u : Fin 1) :
    k0_pay6 (F := Ideal) v0 v2 v4 v7 v11 v19 v27 (ix2 p u) = mean (fun q => k0_pay5 (F := Ideal) v0 v2 v4 v7 v11 v19 v27 (ix2 p q)) := by
  unfold k0_pay6 mean
  simp only [divf_apply, broadcast_apply]
  rw [Cert.GraphConv.Column.shapeCast_a_a1_apply]
  exact congrArg (Ideal.div · width) (Cert.LaneSum.sum_last2 _ _ _ _ _ p)

/-- The column of row sums of squared deviations at row `p`. -/
theorem sqDev_at (p : Fin 256) (u : Fin 1) :
    k0_pay7 (F := Ideal) v0 v2 v4 v7 v11 v19 v27 (ix2 p u)
      = sqDev (fun q => k0_pay5 (F := Ideal) v0 v2 v4 v7 v11 v19 v27 (ix2 p q)) (k0_pay6 (F := Ideal) v0 v2 v4 v7 v11 v19 v27 (ix2 p (0 : Fin 1))) := by
  unfold k0_pay7 sqDev
  rw [Cert.GraphConv.Column.shapeCast_a_a1_apply]
  refine (Cert.LaneSum.sum_last2 _ _ _ _ _ p).trans ?_
  refine Finset.sum_congr rfl fun q _ => ?_
  simp only [mulf_apply, subf_apply]
  rw [Cert.GraphConv.Column.broadcastTo_a1_ab_apply]

end Tiles

/-! ## The two stored tiles -/

/-- The normalised-cell tile at `(p, q)`, from the cell tile, the two columns and the gain and offset rows. -/
theorem scaled_at (v30 : FVec Ideal S256x1024 .f32) (v34 v39 : FVec Ideal S256x1 .f32) (v49 v53 : FVec Ideal S1x1024 .f32)
    (p : Fin 256) (q : Fin 1024) :
    k0_pay1 (F := Ideal) v30 v34 v39 v49 v53 (ix2 p q)
      = (v30 (ix2 p q) - v34 (ix2 p (0 : Fin 1))) * Ideal.rsqrt (Ideal.div (v39 (ix2 p (0 : Fin 1))) width + eps)
          * v49 (ix2 (0 : Fin 1) q) + v53 (ix2 (0 : Fin 1) q) := by
  unfold k0_pay1
  simp only [addf_apply, mulf_apply, subf_apply]
  rw [Cert.GraphConv.Column.broadcastTo_a1_ab_apply, Cert.GraphConv.Column.broadcastTo_a1_ab_apply, broadcastTo_1b_ab_apply,
    broadcastTo_1b_ab_apply, shapeCast_self, shapeCast_self]
  rfl

section Stored

variable (P0 P1 : FVec Ideal S256x1024 .f32) (P2 P3 : FVec Ideal S1024x4096 .bf16) (P4 : FVec Ideal S1x4096 .f32)
  (P5 : FVec Ideal S256x1 .f32) (P6 : FVec Ideal S256x1024 .f32) (P7 P8 : FVec Ideal S1x1024 .f32)

/-- Row `p` of the tile's pre-activations, from the loaded tiles. -/
abbrev tileGates (p : Fin 256) : Fin 4096 → EReal :=
  gates (fun k => P0 (ix2 p k)) (fun k => P1 (ix2 p k)) (fun k j => P2 (ix2 k j)) (fun k j => P3 (ix2 k j))
    (fun j => P4 (ix2 (0 : Fin 1) j))

/-- Row `p` of the tile's new cell, from the loaded tiles. -/
abbrev tileCell (p : Fin 256) : Fin 1024 → EReal :=
  cell (tileGates P0 P1 P2 P3 P4 p) (P5 (ix2 p (0 : Fin 1))) (fun q => P6 (ix2 p q))

theorem tileCell_eq (p : Fin 256) :
    (fun q => k0_pay5 (F := Ideal) P0 P1 P2 P3 P4 P5 P6 (ix2 p q)) = tileCell P0 P1 P2 P3 P4 P5 P6 p := by
  funext q
  rw [cell_at]
  exact congrArg (fun g => cell g (P5 (ix2 p (0 : Fin 1))) (fun q => P6 (ix2 p q)) q) (funext fun j => gates_at P0 P1 P2 P3 P4 p j)

/-- What the body stores to the second output's tile, at `(p, q)`: the normalised new cell. -/
theorem cellStore_at (p : Fin 256) (q : Fin 1024) :
    k0_pay1 (F := Ideal) (k0_pay5 (F := Ideal) P0 P1 P2 P3 P4 P5 P6) (k0_pay6 (F := Ideal) P0 P1 P2 P3 P4 P5 P6) (k0_pay7 (F := Ideal) P0 P1 P2 P3 P4 P5 P6) P7 P8 (ix2 p q)
      = normed (tileCell P0 P1 P2 P3 P4 P5 P6 p) (fun q => P7 (ix2 (0 : Fin 1) q)) (fun q => P8 (ix2 (0 : Fin 1) q)) q := by
  rw [scaled_at, sqDev_at, mean_at, tileCell_eq,
    show k0_pay5 (F := Ideal) P0 P1 P2 P3 P4 P5 P6 (ix2 p q) = tileCell P0 P1 P2 P3 P4 P5 P6 p q from
      congrFun (tileCell_eq P0 P1 P2 P3 P4 P5 P6 p) q]
  rfl

/-- What the body stores to the first output's tile, at `(p, q)`: the new hidden state. -/
theorem hiddenStore_at (p : Fin 256) (q : Fin 1024) :
    k0_pay2 (F := Ideal) (k0_pay4 (F := Ideal) P0 P1 P2 P3 P4) (k0_pay5 (F := Ideal) P0 P1 P2 P3 P4 P5 P6) (k0_pay6 (F := Ideal) P0 P1 P2 P3 P4 P5 P6) (k0_pay7 (F := Ideal) P0 P1 P2 P3 P4 P5 P6) P7 P8 (ix2 p q)
      = hidden (tileGates P0 P1 P2 P3 P4 p) (tileCell P0 P1 P2 P3 P4 P5 P6 p) (fun q => P7 (ix2 (0 : Fin 1) q))
          (fun q => P8 (ix2 (0 : Fin 1) q)) q := by
  unfold k0_pay2 hidden
  simp only [mulf_apply, tanh_at]
  rw [cellStore_at]
  unfold k0_pay4
  simp only [logistic_at]
  rw [slice2_axis1_apply 3072 _ _ p q (outAt q) rfl, gates_at]

end Stored

end Cert.CellNorm.Body

end
-- ==== Proof.HostArrays.lean ====
/-
  What the region finds in the buffers that were written before it started.

  Before the tiled computation starts, six small rearrangements of the arguments are made: the weight matrix is cut
  into its upper 1024 rows and its lower 1024 rows (each then narrowed to a shorter float format, which changes no
  value over the extended reals), the bias, the gain and the offset are each laid out as a one-row matrix, and the
  mask as a one-column matrix. Each lemma here reads one entry of one of those six buffers back as an entry of the
  argument it was made from.
-/
import proofs.«180117_j58866821759063_2_alg».proof.Proof.Gen.KernelIdeal.Frame
import proofs.«180117_j58866821759063_2_alg».proof.Proof.Spec
import proofs.«180117_j58866821759063_2_alg».proof.Proof.LibColumn
import Idealize.ShloMosaic.Lib.StableHlo.Run
import Idealize.ShloMosaic.Lib.ValueLayout
import Idealize.ShloMosaic.Lib.ValueIdx
import Idealize.ShloMosaic.Lib.Pipeline.Value

noncomputable section

namespace Cert.CellNorm.Staged

open Cert.KernelIdeal Cert.KernelIdeal.Gen Idealize.ShloMosaic Idealize.ShloMosaic.TcCoe Idealize.SL.Sem
open Idealize.ShloMosaic.StableHlo Idealize.ShloMosaic.ValueIdx Cert.CellNorm

variable (m : (ℓ : Loc nD τ sig) → Buf (Elt Ideal) ℓ) (c : Dev nD)

/-- The weight argument as the region finds it. -/
abbrev weights : S2048x4096.Idx → EReal := m ((c : Thread nD τ).loc main_arg4)

theorem upperW_eq : (V m c main_v1 : S1024x4096.Idx → EReal)
    = extractStridedSlice S1024x4096 ![0, 0] (weights m c) slices_S2048x4096_S1024x4096_0_0 := by
  dsimp only [V, hostOps0]; after_results; rfl

theorem lowerW_eq : (V m c main_v3 : S1024x4096.Idx → EReal)
    = extractStridedSlice S1024x4096 ![1024, 0] (weights m c) slices_S2048x4096_S1024x4096_1024_0 := by
  dsimp only [V, hostOps0]; after_results; rfl

theorem bias_eq : (V m c main_v4 : S1x4096.Idx → EReal)
    = shapeCast S1x4096 (m ((c : Thread nD τ).loc main_arg5) : S4096.Idx → EReal) shapeCasts_S4096_S1x4096 := by
  dsimp only [V, hostOps0]; after_results; rfl

theorem gain_eq : (V m c main_v5 : S1x1024.Idx → EReal)
    = shapeCast S1x1024 (m ((c : Thread nD τ).loc main_arg6) : S1024.Idx → EReal) shapeCasts_S1024_S1x1024 := by
  dsimp only [V, hostOps0]; after_results; rfl

theorem offset_eq : (V m c main_v6 : S1x1024.Idx → EReal)
    = shapeCast S1x1024 (m ((c : Thread nD τ).loc main_arg7) : S1024.Idx → EReal) shapeCasts_S1024_S1x1024 := by
  dsimp only [V, hostOps0]; after_results; rfl

theorem mask_eq : (V m c main_v7 : S8192x1.Idx → EReal)
    = shapeCast S8192x1 (m ((c : Thread nD τ).loc main_arg3) : S8192.Idx → EReal) shapeCasts_S8192_S8192x1 := by
  dsimp only [V, hostOps0]; after_results; rfl

/-! ## Entry by entry -/

/-- Row `k` of the upper-half buffer is row `k` of the weight matrix. -/
theorem upperW_at (k : Fin 1024) (j : Fin 4096) :
    (V m c main_v1 : S1024x4096.Idx → EReal) (ix2 k j) = weights m c (ix2 (upper k) j) := by
  rw [upperW_eq]
  exact slice2_axis0_apply 0 (weights m c) slices_S2048x4096_S1024x4096_0_0 k j (upper k) (Nat.zero_add _).symm

/-- Row `k` of the lower-half buffer is row `1024 + k` of the weight matrix. -/
theorem lowerW_at (k : Fin 1024) (j : Fin 4096) :
    (V m c main_v3 : S1024x4096.Idx → EReal) (ix2 k j) = weights m c (ix2 (lower k) j) := by
  rw [lowerW_eq]
  exact slice2_axis0_apply 1024 (weights m c) slices_S2048x4096_S1024x4096_1024_0 k j (lower k) rfl

theorem bias_at (u : Fin 1) (j : Fin 4096) :
    (V m c main_v4 : S1x4096.Idx → EReal) (ix2 u j) = (m ((c : Thread nD τ).loc main_arg5) : S4096.Idx → EReal) (ix1 j) := by
  rw [bias_eq]
  exact shapeCast_a_1a_apply _ _ u j

theorem gain_at (u : Fin 1) (q : Fin 1024) :
    (V m c main_v5 : S1x1024.Idx → EReal) (ix2 u q) = (m ((c : Thread nD τ).loc main_arg6) : S1024.Idx → EReal) (ix1 q) := by
  rw [gain_eq]
  exact shapeCast_a_1a_apply _ _ u q

theorem offset_at (u : Fin 1) (q : Fin 1024) :
    (V m c main_v6 : S1x1024.Idx → EReal) (ix2 u q) = (m ((c : Thread nD τ).loc main_arg7) : S1024.Idx → EReal) (ix1 q) := by
  rw [offset_eq]
  exact shapeCast_a_1a_apply _ _ u q

theorem mask_at (r : Fin 8192) (u : Fin 1) :
    (V m c main_v7 : S8192x1.Idx → EReal) (ix2 r u) = (m ((c : Thread nD τ).loc main_arg3) : S8192.Idx → EReal) (ix1 r) := by
  rw [mask_eq]
  exact Cert.GraphConv.Column.shapeCast_a_a1_apply _ _ r u

end Cert.CellNorm.Staged

end
-- ==== Proof.Blocks.lean ====
/-
  From tiles to whole arrays.

  The tiled computation visits 32 points; point `t` works on batch rows `256 t … 256 t + 255`. At each point the tiles
  of the input, the previous hidden state, the previous cell and the mask are those rows of their arrays, while the two
  weight halves, the bias, the gain and the offset are the same whole buffers at every point. So row `p` of what point
  `t` computes is the specification's row `256 t + p`, and what the point writes back to each result is that block of
  rows of the specification's array. The 32 blocks cover all 8192 rows (row `r` lies in the block of point `r / 256`),
  so after the run each result array is the specification's array.
-/
import proofs.«180117_j58866821759063_2_alg».proof.Proof.Gen.KernelIdeal.Value
import proofs.«180117_j58866821759063_2_alg».proof.Proof.KernelRows
import proofs.«180117_j58866821759063_2_alg».proof.Proof.HostArrays
import proofs.«180117_j58866821759063_2_alg».proof.Proof.Spec
import Idealize.ShloMosaic.Lib.Pipeline.Value
import Idealize.ShloMosaic.Lib.ValueIdx

noncomputable section

namespace Cert.CellNorm.Tiling

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.CellNorm

variable (m : (ℓ : Loc nD τ sig) → Buf (Elt Ideal) ℓ) (ρ : Dev nD → PrngReg)

theorem hz : (![0, 0] : Fin 2 → Nat) = fun _ => 0 := funext fun a => by fin_cases a <;> rfl

/-- The specification's normalised cell array of the arguments as launched. -/
abbrev cellResult (c : Dev nD) : S8192x1024.Idx → EReal :=
  cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The specification's hidden array of the arguments as launched. -/
abbrev hiddenResult (c : Dev nD) : S8192x1024.Idx → EReal :=
  hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-! ## Where each point's tiles sit -/

/-- The block index of every operand at every point: the four row-tiled inputs and the two results move one block of
    rows per point, the five resident operands stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Batch row `256 t + p`: row `p` of point `t`'s tile. -/
def rowAt (t : Fin cfg0.N) (p : Fin 256) : Fin 8192 :=
  ⟨t.val * 256 + p.val, by have := t.isLt; have hN : cfg0.N = 32 := N_0; have := p.isLt; omega⟩

section Tiles

variable (c : Dev nD) (t : Fin cfg0.N)

theorem x_tile (p : Fin 256) (k : Fin 1024) :
    iblk m c 0 t (ix2 p k) = ((m ((c : Thread nD τ).loc main_arg0)) : S8192x1024.Idx → EReal) (ix2 (rowAt t p) k) := by
  show V m c main_arg0 (((cfg0.win 0).blk t).view.emb (ix2 p k)) = _
  rw [V_main_arg0]
  obtain ⟨e0, e1, -⟩ := idx_facts t
  refine congrArg _ (funext fun a => Fin.ext ?_)
  match a with
  | ⟨0, _⟩ => show win0_0.index t (0 : Fin 2) * 256 + 1 * p.val = t.val * 256 + p.val; omega
  | ⟨1, _⟩ => show win0_0.index t (1 : Fin 2) * 1024 + 1 * k.val = k.val; omega

theorem h_tile (p : Fin 256) (k : Fin 1024) :
    iblk m c 1 t (ix2 p k) = ((m ((c : Thread nD τ).loc main_arg1)) : S8192x1024.Idx → EReal) (ix2 (rowAt t p) k) := by
  show V m c main_arg1 (((cfg0.win 1).blk t).view.emb (ix2 p k)) = _
  rw [V_main_arg1]
  obtain ⟨-, -, e0, e1, -⟩ := idx_facts t
  refine congrArg _ (funext fun a => Fin.ext ?_)
  match a with
  | ⟨0, _⟩ => show win0_1.index t (0 : Fin 2) * 256 + 1 * p.val = t.val * 256 + p.val; omega
  | ⟨1, _⟩ => show win0_1.index t (1 : Fin 2) * 1024 + 1 * k.val = k.val; omega

theorem c_tile (p : Fin 256) (k : Fin 1024) :
    iblk m c 2 t (ix2 p k) = ((m ((c : Thread nD τ).loc main_arg2)) : S8192x1024.Idx → EReal) (ix2 (rowAt t p) k) := by
  show V m c main_arg2 (((cfg0.win 2).blk t).view.emb (ix2 p k)) = _
  rw [V_main_arg2]
  obtain ⟨-, -, -, -, e0, e1, -⟩ := idx_facts t
  refine congrArg _ (funext fun a => Fin.ext ?_)
  match a with
  | ⟨0, _⟩ => show win0_2.index t (0 : Fin 2) * 256 + 1 * p.val = t.val * 256 + p.val; omega
  | ⟨1, _⟩ => show win0_2.index t (1 : Fin 2) * 1024 + 1 * k.val = k.val; omega

theorem mask_tile (p : Fin 256) (u : Fin 1) :
    iblk m c 3 t (ix2 p u) = ((m ((c : Thread nD τ).loc main_arg3)) : S8192.Idx → EReal) (ix1 (rowAt t p)) := by
  show (V m c main_v7 : S8192x1.Idx → EReal) (((cfg0.win 3).blk t).view.emb (ix2 p u)) = _
  obtain ⟨-, -, -, -, -, -, e0, e1, -⟩ := idx_facts t
  have he : ((cfg0.win 3).blk t).view.emb (ix2 p u) = ix2 (rowAt t p) u := funext fun a => Fin.ext (by
    match a with
    | ⟨0, _⟩ => show win0_3.index t (0 : Fin 2) * 256 + 1 * p.val = t.val * 256 + p.val; omega
    | ⟨1, _⟩ => show win0_3.index t (1 : Fin 2) * 1 + 1 * u.val = u.val; omega)
  rw [he]
  exact Staged.mask_at m c (rowAt t p) u

theorem upperW_tile (k : Fin 1024) (j : Fin 4096) :
    iblk m c 4 t (ix2 k j) = ((m ((c : Thread nD τ).loc main_arg4)) : S2048x4096.Idx → EReal) (ix2 (upper k) j) := by
  show (V m c main_v1 : S1024x4096.Idx → EReal) (((cfg0.win 4).blk t).view.emb (ix2 k j)) = _
  obtain ⟨-, -, -, -, -, -, -, -, e0, e1, -⟩ := idx_facts t
  have he : ((cfg0.win 4).blk t).view.emb (ix2 k j) = ix2 k j := funext fun a => Fin.ext (by
    match a with
    | ⟨0, _⟩ => show win0_4.index t (0 : Fin 2) * 1024 + 1 * k.val = k.val; omega
    | ⟨1, _⟩ => show win0_4.index t (1 : Fin 2) * 4096 + 1 * j.val = j.val; omega)
  rw [he]
  exact Staged.upperW_at m c k j

theorem lowerW_tile (k : Fin 1024) (j : Fin 4096) :
    iblk m c 5 t (ix2 k j) = ((m ((c : Thread nD τ).loc main_arg4)) : S2048x4096.Idx → EReal) (ix2 (lower k) j) := by
  show (V m c main_v3 : S1024x4096.Idx → EReal) (((cfg0.win 5).blk t).view.emb (ix2 k j)) = _
  obtain ⟨-, -, -, -, -, -, -, -, -, -, e0, e1, -⟩ := idx_facts t
  have he : ((cfg0.win 5).blk t).view.emb (ix2 k j) = ix2 k j := funext fun a => Fin.ext (by
    match a with
    | ⟨0, _⟩ => show win0_5.index t (0 : Fin 2) * 1024 + 1 * k.val = k.val; omega
    | ⟨1, _⟩ => show win0_5.index t (1 : Fin 2) * 4096 + 1 * j.val = j.val; omega)
  rw [he]
  exact Staged.lowerW_at m c k j

theorem bias_tile (u : Fin 1) (j : Fin 4096) :
    iblk m c 6 t (ix2 u j) = ((m ((c : Thread nD τ).loc main_arg5)) : S4096.Idx → EReal) (ix1 j) := by
  show (V m c main_v4 : S1x4096.Idx → EReal) (((cfg0.win 6).blk t).view.emb (ix2 u j)) = _
  obtain ⟨-, -, -, -, -, -, -, -, -, -, -, -, e0, e1, -⟩ := idx_facts t
  have he : ((cfg0.win 6).blk t).view.emb (ix2 u j) = ix2 u j := funext fun a => Fin.ext (by
    match a with
    | ⟨0, _⟩ => show win0_6.index t (0 : Fin 2) * 1 + 1 * u.val = u.val; omega
    | ⟨1, _⟩ => show win0_6.index t (1 : Fin 2) * 4096 + 1 * j.val = j.val; omega)
  rw [he]
  exact Staged.bias_at m c u j

theorem gain_tile (u : Fin 1) (q : Fin 1024) :
    iblk m c 7 t (ix2 u q) = ((m ((c : Thread nD τ).loc main_arg6)) : S1024.Idx → EReal) (ix1 q) := by
  show (V m c main_v5 : S1x1024.Idx → EReal) (((cfg0.win 7).blk t).view.emb (ix2 u q)) = _
  obtain ⟨-, -, -, -, -, -, -, -, -, -, -, -, -, -, e0, e1, -⟩ := idx_facts t
  have he : ((cfg0.win 7).blk t).view.emb (ix2 u q) = ix2 u q := funext fun a => Fin.ext (by
    match a with
    | ⟨0, _⟩ => show win0_7.index t (0 : Fin 2) * 1 + 1 * u.val = u.val; omega
    | ⟨1, _⟩ => show win0_7.index t (1 : Fin 2) * 1024 + 1 * q.val = q.val; omega)
  rw [he]
  exact Staged.gain_at m c u q

theorem offset_tile (u : Fin 1) (q : Fin 1024) :
    iblk m c 8 t (ix2 u q) = ((m ((c : Thread nD τ).loc main_arg7)) : S1024.Idx → EReal) (ix1 q) := by
  show (V m c main_v6 : S1x1024.Idx → EReal) (((cfg0.win 8).blk t).view.emb (ix2 u q)) = _
  obtain ⟨-, -, -, -, -, -, -, -, -, -, -, -, -, -, -, -, e0, e1, -⟩ := idx_facts t
  have he : ((cfg0.win 8).blk t).view.emb (ix2 u q) = ix2 u q := funext fun a => Fin.ext (by
    match a with
    | ⟨0, _⟩ => show win0_8.index t (0 : Fin 2) * 1 + 1 * u.val = u.val; omega
    | ⟨1, _⟩ => show win0_8.index t (1 : Fin 2) * 1024 + 1 * q.val = q.val; omega)
  rw [he]
  exact Staged.offset_at m c u q

/-- Row `p` of point `t`'s pre-activations is the specification's row `256 t + p`. -/
theorem tileGates_eq (p : Fin 256) :
    Body.tileGates (iblk m c 0 t) (iblk m c 1 t) (iblk m c 4 t) (iblk m c 5 t) (iblk m c 6 t) p
      = gatesOf (m ((c : Thread nD τ).loc main_arg0)) (m ((c : Thread nD τ).loc main_arg1)) (m ((c : Thread nD τ).loc main_arg4)) (m ((c : Thread nD τ).loc main_arg5)) (rowAt t p) := by
  unfold Body.tileGates gatesOf
  simp only [x_tile m c t p, h_tile m c t p, upperW_tile m c t, lowerW_tile m c t, bias_tile m c t]

/-- Row `p` of point `t`'s new cell is the specification's row `256 t + p`. -/
theorem tileCell_eq (p : Fin 256) :
    Body.tileCell (iblk m c 0 t) (iblk m c 1 t) (iblk m c 4 t) (iblk m c 5 t) (iblk m c 6 t) (iblk m c 3 t) (iblk m c 2 t) p
      = cellOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (rowAt t p) := by
  unfold Body.tileCell cellOf
  simp only [tileGates_eq m c t p, mask_tile m c t p, c_tile m c t p]

theorem gainRow_eq : (fun q => iblk m c 7 t (ix2 (0 : Fin 1) q)) = fun q => ((m ((c : Thread nD τ).loc main_arg6)) : S1024.Idx → EReal) (ix1 q) :=
  funext fun q => gain_tile m c t 0 q

theorem offsetRow_eq : (fun q => iblk m c 8 t (ix2 (0 : Fin 1) q)) = fun q => ((m ((c : Thread nD τ).loc main_arg7)) : S1024.Idx → EReal) (ix1 q) :=
  funext fun q => offset_tile m c t 0 q

end Tiles

/-! ## What each point writes back -/

/-- Point `t` writes back, to the second result, rows `256 t … 256 t + 255` of the specification's normalised cell. -/
theorem flushed10_eq (c : Dev nD) (t : Fin cfg0.N) :
    (dats m 0 c).flushed 10 t = ((cfg0.win 10).blk t).view.read (Elt Ideal) (cellResult m c) := by
  rw [flushed10]
  unfold out0_10
  rw [View.canon_unit_zero hz]
  simp only [View.ld_unit_zero (S := S256x1024) hz, View.ld_unit_zero (S := S1024x4096) hz, View.ld_unit_zero (S := S1x4096) hz,
    View.ld_unit_zero (S := S256x1) hz, View.ld_unit_zero (S := S1x1024) hz]
  funext y
  obtain ⟨p, q, rfl⟩ : ∃ (p : Fin 256) (q : Fin 1024), y = ix2 p q := ⟨y 0, y 1, eq_ix2 y⟩
  show k0_pay1 (F := Ideal) (k0_pay5 (iblk m c 0 t) (iblk m c 1 t) (iblk m c 4 t) (iblk m c 5 t) (iblk m c 6 t) (iblk m c 3 t) (iblk m c 2 t)) (k0_pay6 (iblk m c 0 t) (iblk m c 1 t) (iblk m c 4 t) (iblk m c 5 t) (iblk m c 6 t) (iblk m c 3 t) (iblk m c 2 t)) (k0_pay7 (iblk m c 0 t) (iblk m c 1 t) (iblk m c 4 t) (iblk m c 5 t) (iblk m c 6 t) (iblk m c 3 t) (iblk m c 2 t)) (iblk m c 7 t) (iblk m c 8 t) (ix2 p q)
    = cellResult m c (((cfg0.win 10).blk t).view.emb (ix2 p q))
  refine (Body.cellStore_at (iblk m c 0 t) (iblk m c 1 t) (iblk m c 4 t) (iblk m c 5 t) (iblk m c 6 t) (iblk m c 3 t) (iblk m c 2 t) (iblk m c 7 t) (iblk m c 8 t) p q).trans ?_
  obtain ⟨-, -, -, -, -, -, -, -, -, -, -, -, -, -, -, -, -, -, -, -, e0, e1⟩ := idx_facts t
  have he : ((cfg0.win 10).blk t).view.emb (ix2 p q) = ix2 (rowAt t p) q := funext fun a => Fin.ext (by
    match a with
    | ⟨0, _⟩ => show win0_10.index t (0 : Fin 2) * 256 + 1 * p.val = t.val * 256 + p.val; omega
    | ⟨1, _⟩ => show win0_10.index t (1 : Fin 2) * 1024 + 1 * q.val = q.val; omega)
  rw [he, tileCell_eq m c t p, gainRow_eq m c t, offsetRow_eq m c t]
  rfl

/-- Point `t` writes back, to the first result, rows `256 t … 256 t + 255` of the specification's hidden array. -/
theorem flushed9_eq (c : Dev nD) (t : Fin cfg0.N) :
    (dats m 0 c).flushed 9 t = ((cfg0.win 9).blk t).view.read (Elt Ideal) (hiddenResult m c) := by
  rw [flushed9]
  unfold out0_9
  rw [View.canon_unit_zero hz]
  simp only [View.ld_unit_zero (S := S256x1024) hz, View.ld_unit_zero (S := S1024x4096) hz, View.ld_unit_zero (S := S1x4096) hz,
    View.ld_unit_zero (S := S256x1) hz, View.ld_unit_zero (S := S1x1024) hz]
  funext y
  obtain ⟨p, q, rfl⟩ : ∃ (p : Fin 256) (q : Fin 1024), y = ix2 p q := ⟨y 0, y 1, eq_ix2 y⟩
  show k0_pay2 (F := Ideal) (k0_pay4 (iblk m c 0 t) (iblk m c 1 t) (iblk m c 4 t) (iblk m c 5 t) (iblk m c 6 t)) (k0_pay5 (iblk m c 0 t) (iblk m c 1 t) (iblk m c 4 t) (iblk m c 5 t) (iblk m c 6 t) (iblk m c 3 t) (iblk m c 2 t)) (k0_pay6 (iblk m c 0 t) (iblk m c 1 t) (iblk m c 4 t) (iblk m c 5 t) (iblk m c 6 t) (iblk m c 3 t) (iblk m c 2 t)) (k0_pay7 (iblk m c 0 t) (iblk m c 1 t) (iblk m c 4 t) (iblk m c 5 t) (iblk m c 6 t) (iblk m c 3 t) (iblk m c 2 t)) (iblk m c 7 t) (iblk m c 8 t) (ix2 p q)
    = hiddenResult m c (((cfg0.win 9).blk t).view.emb (ix2 p q))
  refine (Body.hiddenStore_at (iblk m c 0 t) (iblk m c 1 t) (iblk m c 4 t) (iblk m c 5 t) (iblk m c 6 t) (iblk m c 3 t) (iblk m c 2 t) (iblk m c 7 t) (iblk m c 8 t) p q).trans ?_
  obtain ⟨-, -, -, -, -, -, -, -, -, -, -, -, -, -, -, -, -, -, e0, e1, -⟩ := idx_facts t
  have he : ((cfg0.win 9).blk t).view.emb (ix2 p q) = ix2 (rowAt t p) q := funext fun a => Fin.ext (by
    match a with
    | ⟨0, _⟩ => show win0_9.index t (0 : Fin 2) * 256 + 1 * p.val = t.val * 256 + p.val; omega
    | ⟨1, _⟩ => show win0_9.index t (1 : Fin 2) * 1024 + 1 * q.val = q.val; omega)
  rw [he, tileGates_eq m c t p, tileCell_eq m c t p, gainRow_eq m c t, offsetRow_eq m c t]
  rfl

/-! ## The blocks cover the arrays -/

theorem mem_blk10 (t : Fin cfg0.N) (i : S8192x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v8_1).slice (win0_10.rect t)).set ↔ _
  rw [View.set_slice_whole, Rect.mem_set_unit]
  exact Iff.rfl

theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v8_0).slice (win0_9.rect t)).set ↔ _
  rw [View.set_slice_whole, Rect.mem_set_unit]
  exact Iff.rfl

/-- The point whose block holds row `r`. -/
def pointOf (i : S8192x1024.Idx) : Fin cfg0.N :=
  ⟨(i 0).val / 256, by have hi0 : (i 0).val < 8192 := (i 0).isLt; have hN : cfg0.N = 32 := N_0; omega⟩

theorem cover10 (i : S8192x1024.Idx) :
    ∃ t : Fin cfg0.N, (cfg0.win 10).flush t = true ∧ i ∈ ((cfg0.win 10).blk t).view.set := by
  have hi0 : (i 0).val < 8192 := (i 0).isLt
  have hi1 : (i 1).val < 1024 := (i 1).isLt
  have ht : (pointOf i).val = (i 0).val / 256 := rfl
  refine ⟨pointOf i, flush0_10 _, ?_⟩
  rw [mem_blk10]
  obtain ⟨-, -, -, -, -, -, -, -, -, -, -, -, -, -, -, -, -, -, -, -, e0, e1⟩ := idx_facts (pointOf i)
  intro a
  match a with
  | ⟨0, _⟩ => show win0_10.index (pointOf i) (0 : Fin 2) * 256 ≤ (i 0).val ∧ (i 0).val < win0_10.index (pointOf i) (0 : Fin 2) * 256 + 256; omega
  | ⟨1, _⟩ => show win0_10.index (pointOf i) (1 : Fin 2) * 1024 ≤ (i 1).val ∧ (i 1).val < win0_10.index (pointOf i) (1 : Fin 2) * 1024 + 1024; omega

theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have ht : (pointOf i).val = (i 0).val / 256 := rfl
  refine ⟨pointOf i, flush0_9 _, ?_⟩
  rw [mem_blk9]
  obtain ⟨-, -, -, -, -, -, -, -, -, -, -, -, -, -, -, -, -, -, e0, e1, -⟩ := idx_facts (pointOf i)
  intro a
  match a with
  | ⟨0, _⟩ => show win0_9.index (pointOf i) (0 : Fin 2) * 256 ≤ (i 0).val ∧ (i 0).val < win0_9.index (pointOf i) (0 : Fin 2) * 256 + 256; omega
  | ⟨1, _⟩ => show win0_9.index (pointOf i) (1 : Fin 2) * 1024 ≤ (i 1).val ∧ (i 1).val < win0_9.index (pointOf i) (1 : Fin 2) * 1024 + 1024; omega

/-! ## The arrays after the run -/

theorem final10 (c : Dev nD) : (dats m 0 c).arrAt 10 cfg0.N = cellResult m c :=
  (dats m 0 c).arrAt_eq_of_cover 10 (cellResult m c) (fun t _ => flushed10_eq m c t) (cover10)

theorem final9 (c : Dev nD) : (dats m 0 c).arrAt 9 cfg0.N = hiddenResult m c :=
  (dats m 0 c).arrAt_eq_of_cover 9 (hiddenResult m c) (fun t _ => flushed9_eq m c t) (cover9)

/-- The kernel's run: both results end at the specification's arrays of the arguments, the arguments unchanged. -/
theorem run : θ_run defs (onTc (τ := τ) (main (F := Ideal))) ⟨m, fun _ => 0, ρ⟩ fun r => ∀ c : Dev nD,
      r.2.mem ((c : Thread nD τ).loc main_v8_0) = hiddenResult m c
      ∧ r.2.mem ((c : Thread nD τ).loc main_v8_1) = cellResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c), (h c).2.1.trans (final10 m c), (h c).2.2⟩)
    (run_blocks m ρ)

end Cert.CellNorm.Tiling

end
-- ==== Proof.RefRows.lean ====
/-
  The reference's values, read one entry at a time.

  The reference works on whole arrays: it joins the input and the previous hidden state side by side, multiplies the
  joined array by the whole weight matrix, adds the bias, cuts the gates, and normalises each row. Every lemma here
  says what ONE entry `(r, q)` of one of its intermediate arrays is and identifies it with the row-wise formulas of the
  specification. Two steps are more than reading off: the product over the 2048 joined contraction positions is split
  into the first 1024 (which read the input) and the last 1024 (which read the previous hidden state); and the
  reference spells the logistic function as `1 / (1 + e^(-z))`.
-/
import proofs.«180117_j58866821759063_2_alg».proof.Proof.Gen.ReferenceIdeal.Read
import proofs.«180117_j58866821759063_2_alg».proof.Proof.Spec
import Idealize.ShloMosaic.Lib.ValueIdx
import Idealize.ShloMosaic.Lib.Pipeline.Value
import Idealize.ShloMosaic.PureOps.Ideal.Laws

noncomputable section

namespace Cert.CellNorm.Ref

open Cert.ReferenceIdeal Cert.ReferenceIdeal.Gen Cert.ReferenceIdeal.Read Idealize.ShloMosaic Idealize.ShloMosaic.ValueIdx Cert.CellNorm

variable (x0 x1 x2 : (⟨S8192x1024, .f32⟩ : BufTy).Contents (Elt Ideal)) (x3 : (⟨S8192, .f32⟩ : BufTy).Contents (Elt Ideal))
  (x4 : (⟨S2048x4096, .f32⟩ : BufTy).Contents (Elt Ideal)) (x5 : (⟨S4096, .f32⟩ : BufTy).Contents (Elt Ideal))
  (x6 x7 : (⟨S1024, .f32⟩ : BufTy).Contents (Elt Ideal))

/-! ## The joined array -/

/-- The joined array at a column of the first half reads the input. -/
theorem joined_upper (r : Fin 8192) (j : Fin 4096) (k : Fin 1024) :
    val_main_v0 (F := Ideal) x0 x1 (lidx_main_v1 (ix2 r j) (upper k)) = x0 (ix2 r k) := by
  unfold val_main_v0
  exact concatenate_pair_apply_left 1 x0 x1 concatenates_S8192x1024_S8192x1024_S8192x2048_d1 _ rfl (ix2 r k)
    (fun b => by match b with | ⟨0, _⟩ => rfl | ⟨1, _⟩ => rfl)

/-- The joined array at a column of the second half reads the previous hidden state. -/
theorem joined_lower (r : Fin 8192) (j : Fin 4096) (k : Fin 1024) :
    val_main_v0 (F := Ideal) x0 x1 (lidx_main_v1 (ix2 r j) (lower k)) = x1 (ix2 r k) := by
  unfold val_main_v0
  exact concatenate_pair_apply_right 1 x0 x1 concatenates_S8192x1024_S8192x1024_S8192x2048_d1 _ rfl rfl (ix2 r k)
    (fun b hb => by
      match b with
      | ⟨0, _⟩ => rfl
      | ⟨1, _⟩ => exact absurd rfl hb)
    (by show k.val + 1024 = 1024 + k.val; omega)

/-! ## Pre-activations -/

/-- The pre-activation array at `(r, j)`: the specification's gate pre-activation `j` of row `r`. -/
theorem gates_at (r : Fin 8192) (j : Fin 4096) :
    val_main_v4 (F := Ideal) x0 x1 x4 x5 (ix2 r j) = gatesOf x0 x1 x4 x5 r j := by
  rw [val_main_v4_apply, val_main_v1_apply, val_main_v3_apply, val_main_v2_apply, sum_halves]
  unfold gatesOf gates
  have eu : ∀ k : Fin 1024, ridx_main_v1 (ix2 r j) (upper k) = ix2 (upper k) j := fun k =>
    funext fun a => Fin.ext (by match a with | ⟨0, _⟩ => rfl | ⟨1, _⟩ => rfl)
  have el : ∀ k : Fin 1024, ridx_main_v1 (ix2 r j) (lower k) = ix2 (lower k) j := fun k =>
    funext fun a => Fin.ext (by match a with | ⟨0, _⟩ => rfl | ⟨1, _⟩ => rfl)
  have eb : idx_main_v2 (idx_main_v3 (ix2 r j)) = ix1 j :=
    funext fun a => Fin.ext (by match a with | ⟨0, _⟩ => rfl)
  rw [eb]
  refine congrArg₂ (· + ·) (congrArg₂ (· + ·) (Finset.sum_congr rfl fun k _ => ?_) (Finset.sum_congr rfl fun k _ => ?_)) rfl
  · rw [joined_upper, eu]
  · rw [joined_lower, el]

/-! ## The new cell -/

/-- The new cell array at `(r, q)`. -/
theorem cell_at (r : Fin 8192) (q : Fin 1024) :
    val_main_v33 (F := Ideal) x0 x1 x2 x3 x4 x5 (ix2 r q)
      = cell (fun j => val_main_v4 (F := Ideal) x0 x1 x4 x5 (ix2 r j)) (x3 (ix1 r)) (fun q => x2 (ix2 r q)) q := by
  have e6 : idx_main_v6 (ix2 r q) = ix2 r (fgAt q) := funext fun a => Fin.ext (by match a with | ⟨0, _⟩ => rfl | ⟨1, _⟩ => rfl)
  have e5 : idx_main_v5 (ix2 r q) = ix2 r (inAt q) := funext fun a => Fin.ext (by match a with | ⟨0, _⟩ => rfl | ⟨1, _⟩ => rfl)
  have e7 : idx_main_v7 (ix2 r q) = ix2 r (cdAt q) := funext fun a => Fin.ext (by match a with | ⟨0, _⟩ => rfl | ⟨1, _⟩ => rfl)
  have e3 : idx_main_v21 (idx_main_v22 (ix2 r q)) = ix1 r := funext fun a => Fin.ext (by match a with | ⟨0, _⟩ => rfl)
  rw [val_main_v33_apply, val_main_v31_apply, val_main_v23_apply, val_main_v20_apply, val_main_v19_apply, val_main_cst_2_apply,
    val_main_v18_apply, val_main_v17_apply, val_main_cst_1_apply, val_main_v16_apply, val_main_v15_apply, val_main_v6_apply,
    val_main_v22_apply, val_main_v21_apply, val_main_v32_apply, val_main_v14_apply, val_main_v13_apply, val_main_cst_0_apply,
    val_main_v12_apply, val_main_v11_apply, val_main_cst_apply, val_main_v10_apply, val_main_v9_apply, val_main_v5_apply,
    val_main_v24_apply, val_main_v7_apply, e6, e5, e7, e3]
  unfold cell
  rw [← logistic_expand, ← logistic_expand]
  rfl

/-! ## Row statistics -/

/-- The column of row means at row `r`. -/
theorem mean_at (r : Fin 8192) (u : Fin 1) :
    val_main_v37 (F := Ideal) x0 x1 x2 x3 x4 x5 (ix2 r u) = mean (fun q => val_main_v33 (F := Ideal) x0 x1 x2 x3 x4 x5 (ix2 r q)) := by
  have e : ∀ k : Fin 1024, idx_main_v34 (idx_main_v35 (ix2 r u)) k = ix2 r k := fun k =>
    funext fun a => Fin.ext (by match a with | ⟨0, _⟩ => rfl | ⟨1, _⟩ => rfl)
  rw [val_main_v37_apply, val_main_v35_apply, val_main_v34_apply, val_main_v36_apply, val_main_cst_6_apply, val_main_cst_5_apply]
  unfold mean
  simp only [e, Ideal.ofBits_def, Ideal.ofBits_zero_f32, zero_add]
  rfl

/-- The column of row spreads at row `r`: the sum of squared deviations from the row's mean over the width. -/
theorem spread_at (r : Fin 8192) (u : Fin 1) :
    val_main_v44 (F := Ideal) x0 x1 x2 x3 x4 x5 (ix2 r u)
      = Ideal.div (sqDev (fun q => val_main_v33 (F := Ideal) x0 x1 x2 x3 x4 x5 (ix2 r q))
          (val_main_v37 (F := Ideal) x0 x1 x2 x3 x4 x5 (ix2 r (0 : Fin 1)))) width := by
  have e : ∀ k : Fin 1024, idx_main_v41 (idx_main_v42 (ix2 r u)) k = ix2 r k := fun k =>
    funext fun a => Fin.ext (by match a with | ⟨0, _⟩ => rfl | ⟨1, _⟩ => rfl)
  have e38 : ∀ k : Fin 1024, idx_main_v38 (ix2 r k) = ix2 r (0 : Fin 1) := fun k =>
    funext fun a => Fin.ext (by match a with | ⟨0, _⟩ => rfl | ⟨1, _⟩ => rfl)
  rw [val_main_v44_apply, val_main_v42_apply, val_main_v41_apply, val_main_v43_apply, val_main_cst_8_apply, val_main_cst_7_apply]
  unfold sqDev
  simp only [e, val_main_v40_apply, val_main_v39_apply, val_main_v38_apply, e38, Ideal.ofBits_def, Ideal.ofBits_zero_f32, zero_add]
  rfl

/-! ## The two results -/

/-- The normalised cell array at `(r, q)`. -/
theorem normed_at (r : Fin 8192) (q : Fin 1024) :
    val_main_v57 (F := Ideal) x0 x1 x2 x3 x4 x5 x6 x7 (ix2 r q)
      = normed (fun q => val_main_v33 (F := Ideal) x0 x1 x2 x3 x4 x5 (ix2 r q)) (fun q => x6 (ix1 q)) (fun q => x7 (ix1 q)) q := by
  have e45 : idx_main_v45 (ix2 r q) = ix2 r (0 : Fin 1) := funext fun a => Fin.ext (by match a with | ⟨0, _⟩ => rfl | ⟨1, _⟩ => rfl)
  have e50 : idx_main_v50 (ix2 r q) = ix2 r (0 : Fin 1) := funext fun a => Fin.ext (by match a with | ⟨0, _⟩ => rfl | ⟨1, _⟩ => rfl)
  have e6 : idx_main_v52 (idx_main_v53 (ix2 r q)) = ix1 q := funext fun a => Fin.ext (by match a with | ⟨0, _⟩ => rfl)
  have e7 : idx_main_v55 (idx_main_v56 (ix2 r q)) = ix1 q := funext fun a => Fin.ext (by match a with | ⟨0, _⟩ => rfl)
  rw [val_main_v57_apply, val_main_v54_apply, val_main_v51_apply, val_main_v46_apply, val_main_v45_apply, val_main_v50_apply,
    val_main_v49_apply, val_main_v48_apply, val_main_v47_apply, val_main_cst_9_apply, val_main_v53_apply, val_main_v52_apply,
    val_main_v56_apply, val_main_v55_apply, e45, e50, e6, e7, spread_at, mean_at]
  rfl

/-- The hidden array at `(r, q)`. -/
theorem hidden_at (r : Fin 8192) (q : Fin 1024) :
    val_main_v59 (F := Ideal) x0 x1 x2 x3 x4 x5 x6 x7 (ix2 r q)
      = hidden (fun j => val_main_v4 (F := Ideal) x0 x1 x4 x5 (ix2 r j))
          (fun q => val_main_v33 (F := Ideal) x0 x1 x2 x3 x4 x5 (ix2 r q)) (fun q => x6 (ix1 q)) (fun q => x7 (ix1 q)) q := by
  have e8 : idx_main_v8 (ix2 r q) = ix2 r (outAt q) := funext fun a => Fin.ext (by match a with | ⟨0, _⟩ => rfl | ⟨1, _⟩ => rfl)
  rw [val_main_v59_apply, val_main_v58_apply, val_main_v30_apply, val_main_v29_apply, val_main_cst_4_apply, val_main_v28_apply,
    val_main_v27_apply, val_main_cst_3_apply, val_main_v26_apply, val_main_v25_apply, val_main_v8_apply, e8, normed_at]
  unfold hidden
  rw [← logistic_expand]
  rfl

/-! ## The reference computes the specification -/

theorem cellRow_eq (r : Fin 8192) :
    (fun q => val_main_v33 (F := Ideal) x0 x1 x2 x3 x4 x5 (ix2 r q)) = cellOf x0 x1 x2 x3 x4 x5 r := by
  funext q
  rw [cell_at]
  unfold cellOf
  exact congrArg (fun g => cell g (x3 (ix1 r)) (fun q => x2 (ix2 r q)) q) (funext fun j => gates_at x0 x1 x4 x5 r j)

/-- The reference's second result is the specification's normalised cell array. -/
theorem cell_eq : val_main_v57 (F := Ideal) x0 x1 x2 x3 x4 x5 x6 x7 = cellArr x0 x1 x2 x3 x4 x5 x6 x7 := by
  funext i
  obtain ⟨r, q, rfl⟩ : ∃ (r : Fin 8192) (q : Fin 1024), i = ix2 r q := ⟨i 0, i 1, eq_ix2 i⟩
  rw [normed_at, cellRow_eq]
  rfl

/-- The reference's first result is the specification's hidden array. -/
theorem hidden_eq : val_main_v59 (F := Ideal) x0 x1 x2 x3 x4 x5 x6 x7 = hiddenArr x0 x1 x2 x3 x4 x5 x6 x7 := by
  funext i
  obtain ⟨r, q, rfl⟩ : ∃ (r : Fin 8192) (q : Fin 1024), i = ix2 r q := ⟨i 0, i 1, eq_ix2 i⟩
  rw [hidden_at, cellRow_eq, show (fun j => val_main_v4 (F := Ideal) x0 x1 x4 x5 (ix2 r j)) = gatesOf x0 x1 x4 x5 r from
    funext fun j => gates_at x0 x1 x4 x5 r j]
  rfl

end Cert.CellNorm.Ref

end
-- ==== Proof.lean ====
/-
  The fused cell kernel against its array-at-a-time reference, over the extended reals.

  Both programs take a batch of 8192 rows — an input, a previous hidden state and a previous cell state of width 1024
  each, a per-row mask, a 2048 × 4096 weight matrix, a bias, and a gain and an offset of width 1024 — and return the new
  hidden state and the normalised new cell state (Proof/Spec.lean spells the formulas out, one row at a time).

  The kernel visits the batch in 32 tiles of 256 rows. It keeps the two halves of the weight matrix apart and adds the
  two partial products; the reference joins the input and the hidden state side by side and multiplies once. Over the
  extended reals those are the same sum of 2048 terms taken in two halves, which needs only that addition is
  commutative and associative: no finiteness of the inputs is used anywhere. The kernel applies the logistic function
  as one operation where the reference spells `1 / (1 + e^(-z))`; that is the logistic function's definition. Every
  other operation is the same in both, and a change of float format is the identity here.

  The pieces: Proof/KernelRows.lean reads the kernel body's tiles entry by entry; Proof/HostArrays.lean reads the six
  buffers prepared before the tiled computation; Proof/Blocks.lean puts the 32 tiles together into whole arrays;
  Proof/RefRows.lean reads the reference's arrays entry by entry. Both sides end at the same two functions of the
  arguments, `hiddenArr` and `cellArr`.

  The idealised kernel is the kernel's own text read over the extended reals (no operation was rewritten), so that
  conjunct has nothing to prove; the three runs' termination, absence of faults and unchanged arguments are the
  generated frame proofs for the two kernels and the generated run for the reference.
-/
import proofs.«180117_j58866821759063_2_alg».proof.Defs
import proofs.«180117_j58866821759063_2_alg».proof.Proof.Gen.Kernel
import proofs.«180117_j58866821759063_2_alg».proof.Proof.Gen.Kernel.Skeleton
import proofs.«180117_j58866821759063_2_alg».proof.Proof.Gen.Kernel.Launch
import proofs.«180117_j58866821759063_2_alg».proof.Proof.Gen.Kernel.Points
import proofs.«180117_j58866821759063_2_alg».proof.Proof.Gen.Kernel.Frame
import proofs.«180117_j58866821759063_2_alg».proof.Proof.Gen.KernelIdeal
import proofs.«180117_j58866821759063_2_alg».proof.Proof.Gen.KernelIdeal.Skeleton
import proofs.«180117_j58866821759063_2_alg».proof.Proof.Gen.KernelIdeal.Launch
import proofs.«180117_j58866821759063_2_alg».proof.Proof.Gen.KernelIdeal.Points
import proofs.«180117_j58866821759063_2_alg».proof.Proof.Gen.KernelIdeal.Frame
import proofs.«180117_j58866821759063_2_alg».proof.Proof.Gen.ReferenceIdeal
import proofs.«180117_j58866821759063_2_alg».proof.Proof.Gen.Pre_finite_inputs
import proofs.«180117_j58866821759063_2_alg».proof.Proof.Gen.KernelIdeal.Value
import proofs.«180117_j58866821759063_2_alg».proof.Proof.Gen.ReferenceIdeal.Run
import proofs.«180117_j58866821759063_2_alg».proof.Proof.Gen.ReferenceIdeal.Read
import proofs.«180117_j58866821759063_2_alg».proof.Proof.Blocks
import proofs.«180117_j58866821759063_2_alg».proof.Proof.RefRows
import Idealize.ShloMosaic.Adequacy
import Idealize.ShloMosaic.Init

noncomputable section

namespace Cert.Proof

open Idealize.ShloMosaic Idealize.SL.Sem Cert.Kernel

/-- The kernel as printed terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten when it was read over the extended reals. -/
theorem preserves : Cert.preserves_Kernel_KernelIdeal := trivial

/-- From memories that agree on the arguments, the kernel's two result arrays and the reference's are the same two
    functions of the arguments: the specification's hidden array and normalised cell array. -/
theorem algebraic : Cert.algebraic_KernelIdeal_ReferenceIdeal := by
  intro m ρ m' ρ' _ hagree
  refine ⟨fun c => Cert.CellNorm.Tiling.hiddenResult m c, fun c => Cert.CellNorm.Tiling.cellResult m c,
    Cert.CellNorm.Tiling.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7⟩ := hagree c
    rw [Cert.ReferenceIdeal.Read.val_main_v59_eq, Cert.CellNorm.Ref.hidden_eq, h0, h1, h2, h3, h4, h5, h6, h7]
  · obtain ⟨h0, h1, h2, h3, h4, h5, h6, h7⟩ := hagree c
    rw [Cert.ReferenceIdeal.Read.val_main_v57_eq, Cert.CellNorm.Ref.cell_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
